-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256x128 : S_.BroadcastsInDim S8x256x256x128 (![] : Fin 0 → Fin S8x256x256x128.rank)
  reducesTo_S8x256x256x128_S_d0_1_2_3 : S8x256x256x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x256x128 .f32) (main_arg1 : FVec F S8x256x256x128 .f32) (main_arg2 : FVec F S128x128 .f32) (main_arg3 : FVec F S128 .f32) (main_arg4 : FVec F S128x128 .f32) (main_arg5 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256x128 .f32 := Host.absf main_arg1
  let main_cst_0 : FVec F S_ .f32 := constant S_ .f32 0x7F800000#32
  let main_v5 : FVec F S8x256x256x128 .f32 := broadcastInDim S8x256x256x128 ![] bcast_S_S8x256x256x128 main_cst_0
  let main_v6 : IVec S8x256x256x128 1 := cmpf .olt main_v4 main_v5
  let main_c_1 : IVec S_ 1 := constantI S_ 1 1#1
  let main_v7 : IVec S_ 1 := (fun x v => Host.reduce IntOp.andi x v reducesTo_S8x256x256x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S1x32x256x128 : Shape := ⟨4, ![1, 32, 256, 128]⟩
abbrev S1x32x128 : Shape := ⟨3, ![1, 32, 128]⟩
abbrev S1x256x128 : Shape := ⟨3, ![1, 256, 128]⟩
abbrev S32x256x128 : Shape := ⟨3, ![32, 256, 128]⟩
abbrev S8192x128 : Shape := ⟨2, ![8192, 128]⟩
abbrev S32x128 : Shape := ⟨2, ![32, 128]⟩
abbrev S256x128 : Shape := ⟨2, ![256, 128]⟩
abbrev S1x128 : Shape := ⟨2, ![1, 128]⟩
abbrev S32x1x128 : Shape := ⟨3, ![32, 1, 128]⟩

abbrev nBuf : Space → Nat
  | .hbm => 9
  | .vmem => 12
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S8x256x256x128, .f32⟩
  | .local _ .vmem, ⟨0, _⟩ => ⟨S1x32x256x128, .f32⟩
  | .local _ .vmem, ⟨1, _⟩ => ⟨S1x32x256x128, .f32⟩
  | .local _ .vmem, ⟨2, _⟩ => ⟨S1x32x128, .f32⟩
  | .local _ .vmem, ⟨3, _⟩ => ⟨S1x32x128, .f32⟩
  | .local _ .vmem, ⟨4, _⟩ => ⟨S1x256x128, .f32⟩
  | .local _ .vmem, ⟨5, _⟩ => ⟨S1x256x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S1x32x256x128, .f32⟩
  | .local _ .vmem, ⟨11, _⟩ => ⟨S1x32x256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S128x128_S128x128_1_0 : S128x128.Transposes [1, 0] S128x128
  inb_S1x32x256x128_S1x32x256x128_0_0_0_0 : ∀ a, (![0, 0, 0, 0] : Fin 4 → Nat) a + S1x32x256x128.size a ≤ S1x32x256x128.size a
  h_S1x32x256x128 : 0 < S1x32x256x128.numel
  shapeCasts_S1x32x256x128_S32x256x128 : S1x32x256x128.ShapeCasts S32x256x128
  shapeCasts_S32x256x128_S8192x128 : S32x256x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x128_S32x256x128 : S8192x128.ShapeCasts S32x256x128
  inb_S128_S128_0 : ∀ a, (![0] : Fin 1 → Nat) a + S128.size a ≤ S128.size a
  h_S128 : 0 < S128.numel
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S128_S1x128 : S128.ShapeCasts S1x128
  broadcasts_S1x128_S32x128 : S1x128.Broadcasts S32x128
  broadcasts_S1x128_S256x128 : S1x128.Broadcasts S256x128
  shapeCasts_S32x128_S32x1x128 : S32x128.ShapeCasts S32x1x128
  broadcasts_S32x1x128_S32x256x128 : S32x1x128.Broadcasts S32x256x128
  shapeCasts_S256x128_S1x256x128 : S256x128.ShapeCasts S1x256x128
  broadcasts_S1x256x128_S32x256x128 : S1x256x128.Broadcasts S32x256x128
  shapeCasts_S32x256x128_S1x32x256x128 : S32x256x128.ShapeCasts S1x32x256x128
  dot_S8192x128_S128x128_S8192x128_1_0_0_1_n_n_wf : DotDims.WF S8192x128 S128x128 S8192x128 [1] [0] [0] [1] [] []
  dot_S32x128_S128x128_S32x128_1_0_0_1_n_n_wf : DotDims.WF S32x128 S128x128 S32x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x128.size a ≤ S8x256x256x128.size a
  hwx0_0 : ∀ i : grid0.Coords, EltTy.bits .f32 = 32 ∨ (Rect.block (s := S8x256x256x128) S1x32x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S8x256x128.size a
  hwx0_1 : ∀ i : grid0.Coords, EltTy.bits .f32 = 32 ∨ (Rect.block (s := S8x256x128) S1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S8x256x128.size a
  hwx0_2 : ∀ i : grid0.Coords, EltTy.bits .f32 = 32 ∨ (Rect.block (s := S8x256x128) S1x256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x256x128.size a ≤ S8x256x256x128.size a
  hwx0_7 : ∀ i : grid0.Coords, EltTy.bits .f32 = 32 ∨ (Rect.block (s := S8x256x256x128) S1x32x256x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg1) S1x32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32x256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S1x1x1x128 : Shape := ⟨4, ![1, 1, 1, 128]⟩
abbrev S1x1x128 : Shape := ⟨3, ![1, 1, 128]⟩
abbrev S8x256x1x128 : Shape := ⟨4, ![8, 256, 1, 128]⟩
abbrev S8x1x256x128 : Shape := ⟨4, ![8, 1, 256, 128]⟩

abbrev nBuf : Space → Nat
  | .hbm => 20
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8x256x256x128, .f32⟩
  | .hbm, ⟨7, _⟩ => ⟨S1x1x1x128, .f32⟩
  | .hbm, ⟨8, _⟩ => ⟨S8x256x256x128, .f32⟩
  | .hbm, ⟨9, _⟩ => ⟨S8x256x256x128, .f32⟩
  | .hbm, ⟨10, _⟩ => ⟨S8x256x128, .f32⟩
  | .hbm, ⟨11, _⟩ => ⟨S1x1x128, .f32⟩
  | .hbm, ⟨12, _⟩ => ⟨S8x256x128, .f32⟩
  | .hbm, ⟨13, _⟩ => ⟨S8x256x128, .f32⟩
  | .hbm, ⟨14, _⟩ => ⟨S8x256x1x128, .f32⟩
  | .hbm, ⟨15, _⟩ => ⟨S8x256x256x128, .f32⟩
  | .hbm, ⟨16, _⟩ => ⟨S8x256x256x128, .f32⟩
  | .hbm, ⟨17, _⟩ => ⟨S8x1x256x128, .f32⟩
  | .hbm, ⟨18, _⟩ => ⟨S8x256x256x128, .f32⟩
  | .hbm, ⟨19, _⟩ => ⟨S8x256x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S8x256x128_S8x256x1x128_0_1_3 : S8x256x128.BroadcastsInDim S8x256x1x128 (![0, 1, 3] : Fin 3 → Fin S8x256x1x128.rank)
  bcast_S8x256x1x128_S8x256x256x128_0_1_2_3 : S8x256x1x128.BroadcastsInDim S8x256x256x128 (![0, 1, 2, 3] : Fin 4 → Fin S8x256x256x128.rank)
  bcast_S8x256x128_S8x1x256x128_0_2_3 : S8x256x128.BroadcastsInDim S8x1x256x128 (![0, 2, 3] : Fin 3 → Fin S8x1x256x128.rank)
  bcast_S8x1x256x128_S8x256x256x128_0_1_2_3 : S8x1x256x128.BroadcastsInDim S8x256x256x128 (![0, 1, 2, 3] : Fin 4 → Fin S8x256x256x128.rank)
  dot_S8x256x256x128_S128x128_S8x256x256x128_3_1_012_0_n_n_wf : DotDims.WF S8x256x256x128 S128x128 S8x256x256x128 [3] [1] [0, 1, 2] [0] [] []
  dot_S8x256x128_S128x128_S8x256x128_2_1_01_0_n_n_wf : DotDims.WF S8x256x128 S128x128 S8x256x128 [2] [1] [0, 1] [0] [] []

variable [Facts₀]

def dot_S8x256x256x128_S128x128_S8x256x256x128_3_1_012_0_n_n : DotDims S8x256x256x128 S128x128 S8x256x256x128 where
  lhsContracting := [3]
  rhsContracting := [1]
  lhsNonContracting := [0, 1, 2]
  rhsNonContracting := [0]
  lhsBatch := []
  rhsBatch := []
  wf := dot_S8x256x256x128_S128x128_S8x256x256x128_3_1_012_0_n_n_wf
def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf

class Facts : Prop extends Facts₀ where

variable [Facts]
-- ==== Proof.KernelRun.lean ====
/-
  The run of the edge-layer kernel, at any float instance.

  The call hands the node features `x` to the body through TWO windows at once: a block of 32 rows (the rows `i` of the
  tile) and the whole batch entry (all 256 rows `j`). Both windows only read the array, so each holds HALF of it: the
  full share of `x` is split in two at the call's entry, each half is enough for the pipeline's fetches, and the halves
  rejoin at the exit with `x` unchanged. Every other array belongs to one window, at the full share.

  What the body does at a grid point `t = (b, i-tile)`: it loads its seven input blocks whole, computes one value
  (the generated payload `k0_pay2`, re-laid by `k0_pay1`), and stores it over the whole output block; so after the body
  the output window's buffer holds that value of the seven input blocks (`outBlock`), and each input buffer what it held.
  The input blocks are the arrays' blocks as the call finds them (`V`): the six arguments as launched, the two weight
  matrices transposed by the two host operations before the call.

  From these: the proof data (`dats`), the body's obligation at every point, the call's launch with the split shares,
  and the run's post — every window's array at what the write-backs leave (`Dat.arrAt`), every other buffer as found.
-/
import proofs.«138836_j2001454760694_2_alg».proof.Proof.Gen.Kernel.Launch
import proofs.«138836_j2001454760694_2_alg».proof.Proof.Gen.Kernel.Skeleton
import proofs.«138836_j2001454760694_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- What each buffer of the core holds when the call is entered: the launch contents after the two transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two transposes, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transposes before the call write only their own results: `main_arg0` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg1` is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg2` is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg3` is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg4` is found as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg5` is found as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

abbrev rEdge : Rect S1x32x256x128 := Rect.unit (s := S1x32x256x128) ![0, 0, 0, 0] S1x32x256x128.size inb_S1x32x256x128_S1x32x256x128_0_0_0_0
abbrev rRows : Rect S1x32x128 := Rect.unit (s := S1x32x128) ![0, 0, 0] S1x32x128.size inb_S1x32x128_S1x32x128_0_0_0
abbrev rCols : Rect S1x256x128 := Rect.unit (s := S1x256x128) ![0, 0, 0] S1x256x128.size inb_S1x256x128_S1x256x128_0_0_0
abbrev rMat : Rect S128x128 := Rect.unit (s := S128x128) ![0, 0] S128x128.size inb_S128x128_S128x128_0_0
abbrev rVec : Rect S128 := Rect.unit (s := S128) ![0] S128.size inb_S128_S128_0

/-- The output window's buffer after the body, from the seven input blocks (in the windows' order: the edge tile, the
    tile's node rows, the batch entry's node rows, the edge weights transposed, the edge bias, the node weights
    transposed, the node bias): its one store, over the whole buffer. -/
def outBlock (x0 : Vec F S1x32x256x128 .f32) (x1 : Vec F S1x32x128 .f32) (x2 : Vec F S1x256x128 .f32) (x3 : Vec F S128x128 .f32)
    (x4 : Vec F S128 .f32) (x5 : Vec F S128x128 .f32) (x6 : Vec F S128 .f32) : Vec F S1x32x256x128 .f32 :=
  View.canon [⟨rEdge, k0_pay1 (k0_pay2 (View.ld x0 rEdge) (View.ld x3 rMat) (View.ld x5 rMat) (View.ld x6 rVec) (View.ld x4 rVec) (View.ld x1 rRows) (View.ld x2 rCols))⟩]

/-- The one store covers the buffer. -/
theorem cover_out (p0 : Vec F S1x32x256x128 .f32) (y : S1x32x256x128.Idx) :
    ∃ pc ∈ ([⟨rEdge, p0⟩] : List (View.Piece (Elt F) S1x32x256x128 .f32)), y ∈ pc.1.set :=
  View.cover_of_tiled [⟨rEdge, p0⟩] S1x32x256x128.size (by rfl) y

set_option maxHeartbeats 1000000 in
/-- The body on whole buffers, the inputs' at contents `xW` and the output's at anything, leaves the inputs' as they were
    and the output's at `outBlock` of them. -/
theorem sound_kernel (c : Dev nD) (E : Set ℕ) (i : grid0.Coords)
    (arg2 : Memref sig .tc .vmem S1x32x256x128 .f32) (harg2 : arg2.IsWhole) (arg3 : Memref sig .tc .vmem S1x32x128 .f32) (harg3 : arg3.IsWhole)
    (arg4 : Memref sig .tc .vmem S1x256x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S128x128 .f32) (harg7 : arg7.IsWhole)
    (arg8 : Memref sig .tc .vmem S128 .f32) (harg8 : arg8.IsWhole) (arg9 : Memref sig .tc .vmem S1x32x256x128 .f32) (harg9 : arg9.IsWhole)
    (x0 : Vec F S1x32x256x128 .f32) (x1 : Vec F S1x32x128 .f32) (x2 : Vec F S1x256x128 .f32) (x3 : Vec F S128x128 .f32)
    (x4 : Vec F S128 .f32) (x5 : Vec F S128x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outBlock x0 x1 x2 x3 x4 x5 x6)) -∗ K ⟨⟩))
      ⊢ wp frame (wpE (defs₀ (F := F)) Variants.none c none) E
          (cc0__edge_kernel i arg2 harg2 arg3 harg3 arg4 harg4 arg5 harg5 arg6 harg6 arg7 harg7 arg8 harg8 arg9 harg9) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The proof data -/

/-- The call's proof data on core `c`: the arrays as the call finds them; after the body at point `t` each input's
    buffer at its block and the output's at `outBlock` of the input blocks; nothing kept between points; nothing owed;
    every array at the full share, but for the node features, of which the tile-rows window holds one half and the
    batch-entry window the other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := iprop(emp)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

/-- Each input's current buffer holds its block at every point, fetched there or not (unfetched, its block index has
    not moved since the point that fetched it, and the body leaves the block in place). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The arrays at the call's entry -/

/-- The buffers behind the windows' arrays, one by one: seven buffers for eight windows. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_arg5) ↦{fullShare} W main_arg5)
          ∗ (((c : Thread nD τ).loc main_v2) ↦{fullShare} W main_v2)) := by
  unfold Pipeline.arrBufs
  exact bigSep_eq_bigSepL_of_eq [main_arg1, main_arg0, main_v0, main_arg3, main_v1, main_arg5, main_v2] (by decide) (by decide) _

/-- Each window's array as the proof data holds it at entry: its whole buffer, at the window's share, at the contents the
    call finds. -/
theorem arr_entry_0 (c : Dev nD) :
    (((cfg0.win 0).arr.view.loc (c.tc : Thread nD τ)) ↦[(cfg0.win 0).arr.view.set]{(dats m 0 c).share 0} ((dats m 0 c).arrAt 0 0) : sProp 𝕄)
      = (((c : Thread nD τ).loc main_arg1) ↦{fullShare} V m c main_arg1) := by
  rw [(arr_whole0 0).set_eq_univ]; rfl
theorem arr_entry_1 (c : Dev nD) :
    (((cfg0.win 1).arr.view.loc (c.tc : Thread nD τ)) ↦[(cfg0.win 1).arr.view.set]{(dats m 0 c).share 1} ((dats m 0 c).arrAt 1 0) : sProp 𝕄)
      = (((c : Thread nD τ).loc main_arg0) ↦{fullShare.left} V m c main_arg0) := by
  rw [(arr_whole0 1).set_eq_univ]; rfl
theorem arr_entry_2 (c : Dev nD) :
    (((cfg0.win 2).arr.view.loc (c.tc : Thread nD τ)) ↦[(cfg0.win 2).arr.view.set]{(dats m 0 c).share 2} ((dats m 0 c).arrAt 2 0) : sProp 𝕄)
      = (((c : Thread nD τ).loc main_arg0) ↦{fullShare.right} V m c main_arg0) := by
  rw [(arr_whole0 2).set_eq_univ]; rfl
theorem arr_entry_3 (c : Dev nD) :
    (((cfg0.win 3).arr.view.loc (c.tc : Thread nD τ)) ↦[(cfg0.win 3).arr.view.set]{(dats m 0 c).share 3} ((dats m 0 c).arrAt 3 0) : sProp 𝕄)
      = (((c : Thread nD τ).loc main_v0) ↦{fullShare} V m c main_v0) := by
  rw [(arr_whole0 3).set_eq_univ]; rfl
theorem arr_entry_4 (c : Dev nD) :
    (((cfg0.win 4).arr.view.loc (c.tc : Thread nD τ)) ↦[(cfg0.win 4).arr.view.set]{(dats m 0 c).share 4} ((dats m 0 c).arrAt 4 0) : sProp 𝕄)
      = (((c : Thread nD τ).loc main_arg3) ↦{fullShare} V m c main_arg3) := by
  rw [(arr_whole0 4).set_eq_univ]; rfl
theorem arr_entry_5 (c : Dev nD) :
    (((cfg0.win 5).arr.view.loc (c.tc : Thread nD τ)) ↦[(cfg0.win 5).arr.view.set]{(dats m 0 c).share 5} ((dats m 0 c).arrAt 5 0) : sProp 𝕄)
      = (((c : Thread nD τ).loc main_v1) ↦{fullShare} V m c main_v1) := by
  rw [(arr_whole0 5).set_eq_univ]; rfl
theorem arr_entry_6 (c : Dev nD) :
    (((cfg0.win 6).arr.view.loc (c.tc : Thread nD τ)) ↦[(cfg0.win 6).arr.view.set]{(dats m 0 c).share 6} ((dats m 0 c).arrAt 6 0) : sProp 𝕄)
      = (((c : Thread nD τ).loc main_arg5) ↦{fullShare} V m c main_arg5) := by
  rw [(arr_whole0 6).set_eq_univ]; rfl
theorem arr_entry_7 (c : Dev nD) :
    (((cfg0.win 7).arr.view.loc (c.tc : Thread nD τ)) ↦[(cfg0.win 7).arr.view.set]{(dats m 0 c).share 7} ((dats m 0 c).arrAt 7 0) : sProp 𝕄)
      = (((c : Thread nD τ).loc main_v2) ↦{fullShare} V m c main_v2) := by
  rw [(arr_whole0 7).set_eq_univ]; rfl

/-- The seven buffers, each whole at the full share, make the eight windows' arrays: the node features' full share is
    its left half and its right half, one for each of its two windows; every other buffer goes to its one window. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list]
  unfold Dat.arrays
  rw [bigSep_W0]
  rw [arr_entry_0, arr_entry_1, arr_entry_2, arr_entry_3, arr_entry_4, arr_entry_5, arr_entry_6, arr_entry_7]
  iintro ⟨H1, H0, Hv0, H3, Hv1, H5, Hv2⟩
  ihave H0s := (pointsTo_share (PosShare.mem_left_op_right fullShare)).1 $$ H0
  icases H0s with ⟨H0l, H0r⟩
  isplitl [H1]; · iexact H1
  isplitl [H0l]; · iexact H0l
  isplitl [H0r]; · iexact H0r
  isplitl [Hv0]; · iexact Hv0
  isplitl [H3]; · iexact H3
  isplitl [Hv1]; · iexact Hv1
  isplitl [H5]; · iexact H5
  iexact Hv2

/-! ## The run -/

set_option backward.isDefEq.respectTransparency.types false in
/-- From any memory with every counter at zero, every weakly fair execution of the program terminates without a fault,
    every window's array ends at what the write-backs leave of the proof data, and every other unscoped buffer at what
    the call found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

/-- info: 'Cert.Kernel.Run.run_main' depends on axioms: [propext, Classical.choice, Quot.sound] -/
#guard_msgs in #print axioms run_main

/-! ## The frame -/

/-- The program runs to the end and its six argument arrays end as launched: the four the call stages are inputs of
    their windows, never written; the two weight matrices pass the call by (it stages their transposes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 rfl (by decide))).trans (V_main_arg2 m c),
      ((h c).1 4).trans (((dats m 0 c).arrAt_in 4 rfl _).trans ((A_eq m c 4).trans (V_main_arg3 m c))),
      ((h c).2 main_arg4 (Pipeline.mem_restRefs_of main_arg4 rfl (by decide))).trans (V_main_arg4 m c),
      ((h c).1 6).trans (((dats m 0 c).arrAt_in 6 rfl _).trans ((A_eq m c 6).trans (V_main_arg5 m c)))⟩)
    (run_main m ρ)

end Cert.Kernel.Run

end
-- ==== Proof.KernelIdealRun.lean ====
/-
  The run of the edge-layer kernel, at any float instance.

  The call hands the node features `x` to the body through TWO windows at once: a block of 32 rows (the rows `i` of the
  tile) and the whole batch entry (all 256 rows `j`). Both windows only read the array, so each holds HALF of it: the
  full share of `x` is split in two at the call's entry, each half is enough for the pipeline's fetches, and the halves
  rejoin at the exit with `x` unchanged. Every other array belongs to one window, at the full share.

  What the body does at a grid point `t = (b, i-tile)`: it loads its seven input blocks whole, computes one value
  (the generated payload `k0_pay2`, re-laid by `k0_pay1`), and stores it over the whole output block; so after the body
  the output window's buffer holds that value of the seven input blocks (`outBlock`), and each input buffer what it held.
  The input blocks are the arrays' blocks as the call finds them (`V`): the six arguments as launched, the two weight
  matrices transposed by the two host operations before the call.

  From these: the proof data (`dats`), the body's obligation at every point, the call's launch with the split shares,
  and the run's post — every window's array at what the write-backs leave (`Dat.arrAt`), every other buffer as found.
-/
import proofs.«138836_j2001454760694_2_alg».proof.Proof.Gen.KernelIdeal.Launch
import proofs.«138836_j2001454760694_2_alg».proof.Proof.Gen.KernelIdeal.Skeleton
import proofs.«138836_j2001454760694_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- What each buffer of the core holds when the call is entered: the launch contents after the two transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two transposes, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transposes before the call write only their own results: `main_arg0` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg1` is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg2` is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg3` is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg4` is found as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- The transposes before the call write only their own results: `main_arg5` is found as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

abbrev rEdge : Rect S1x32x256x128 := Rect.unit (s := S1x32x256x128) ![0, 0, 0, 0] S1x32x256x128.size inb_S1x32x256x128_S1x32x256x128_0_0_0_0
abbrev rRows : Rect S1x32x128 := Rect.unit (s := S1x32x128) ![0, 0, 0] S1x32x128.size inb_S1x32x128_S1x32x128_0_0_0
abbrev rCols : Rect S1x256x128 := Rect.unit (s := S1x256x128) ![0, 0, 0] S1x256x128.size inb_S1x256x128_S1x256x128_0_0_0
abbrev rMat : Rect S128x128 := Rect.unit (s := S128x128) ![0, 0] S128x128.size inb_S128x128_S128x128_0_0
abbrev rVec : Rect S128 := Rect.unit (s := S128) ![0] S128.size inb_S128_S128_0

/-- The output window's buffer after the body, from the seven input blocks (in the windows' order: the edge tile, the
    tile's node rows, the batch entry's node rows, the edge weights transposed, the edge bias, the node weights
    transposed, the node bias): its one store, over the whole buffer. -/
def outBlock (x0 : Vec F S1x32x256x128 .f32) (x1 : Vec F S1x32x128 .f32) (x2 : Vec F S1x256x128 .f32) (x3 : Vec F S128x128 .f32)
    (x4 : Vec F S128 .f32) (x5 : Vec F S128x128 .f32) (x6 : Vec F S128 .f32) : Vec F S1x32x256x128 .f32 :=
  View.canon [⟨rEdge, k0_pay1 (k0_pay2 (View.ld x0 rEdge) (View.ld x3 rMat) (View.ld x5 rMat) (View.ld x6 rVec) (View.ld x4 rVec) (View.ld x1 rRows) (View.ld x2 rCols))⟩]

/-- The one store covers the buffer. -/
theorem cover_out (p0 : Vec F S1x32x256x128 .f32) (y : S1x32x256x128.Idx) :
    ∃ pc ∈ ([⟨rEdge, p0⟩] : List (View.Piece (Elt F) S1x32x256x128 .f32)), y ∈ pc.1.set :=
  View.cover_of_tiled [⟨rEdge, p0⟩] S1x32x256x128.size (by rfl) y

set_option maxHeartbeats 1000000 in
/-- The body on whole buffers, the inputs' at contents `xW` and the output's at anything, leaves the inputs' as they were
    and the output's at `outBlock` of them. -/
theorem sound_kernel (c : Dev nD) (E : Set ℕ) (i : grid0.Coords)
    (arg2 : Memref sig .tc .vmem S1x32x256x128 .f32) (harg2 : arg2.IsWhole) (arg3 : Memref sig .tc .vmem S1x32x128 .f32) (harg3 : arg3.IsWhole)
    (arg4 : Memref sig .tc .vmem S1x256x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S128x128 .f32) (harg7 : arg7.IsWhole)
    (arg8 : Memref sig .tc .vmem S128 .f32) (harg8 : arg8.IsWhole) (arg9 : Memref sig .tc .vmem S1x32x256x128 .f32) (harg9 : arg9.IsWhole)
    (x0 : Vec F S1x32x256x128 .f32) (x1 : Vec F S1x32x128 .f32) (x2 : Vec F S1x256x128 .f32) (x3 : Vec F S128x128 .f32)
    (x4 : Vec F S128 .f32) (x5 : Vec F S128x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outBlock x0 x1 x2 x3 x4 x5 x6)) -∗ K ⟨⟩))
      ⊢ wp frame (wpE (defs₀ (F := F)) Variants.none c none) E
          (cc0__edge_kernel i arg2 harg2 arg3 harg3 arg4 harg4 arg5 harg5 arg6 harg6 arg7 harg7 arg8 harg8 arg9 harg9) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The proof data -/

/-- The call's proof data on core `c`: the arrays as the call finds them; after the body at point `t` each input's
    buffer at its block and the output's at `outBlock` of the input blocks; nothing kept between points; nothing owed;
    every array at the full share, but for the node features, of which the tile-rows window holds one half and the
    batch-entry window the other. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := iprop(emp)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

/-- Each input's current buffer holds its block at every point, fetched there or not (unfetched, its block index has
    not moved since the point that fetched it, and the body leaves the block in place). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The arrays at the call's entry -/

/-- The buffers behind the windows' arrays, one by one: seven buffers for eight windows. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_arg5) ↦{fullShare} W main_arg5)
          ∗ (((c : Thread nD τ).loc main_v2) ↦{fullShare} W main_v2)) := by
  unfold Pipeline.arrBufs
  exact bigSep_eq_bigSepL_of_eq [main_arg1, main_arg0, main_v0, main_arg3, main_v1, main_arg5, main_v2] (by decide) (by decide) _

/-- Each window's array as the proof data holds it at entry: its whole buffer, at the window's share, at the contents the
    call finds. -/
theorem arr_entry_0 (c : Dev nD) :
    (((cfg0.win 0).arr.view.loc (c.tc : Thread nD τ)) ↦[(cfg0.win 0).arr.view.set]{(dats m 0 c).share 0} ((dats m 0 c).arrAt 0 0) : sProp 𝕄)
      = (((c : Thread nD τ).loc main_arg1) ↦{fullShare} V m c main_arg1) := by
  rw [(arr_whole0 0).set_eq_univ]; rfl
theorem arr_entry_1 (c : Dev nD) :
    (((cfg0.win 1).arr.view.loc (c.tc : Thread nD τ)) ↦[(cfg0.win 1).arr.view.set]{(dats m 0 c).share 1} ((dats m 0 c).arrAt 1 0) : sProp 𝕄)
      = (((c : Thread nD τ).loc main_arg0) ↦{fullShare.left} V m c main_arg0) := by
  rw [(arr_whole0 1).set_eq_univ]; rfl
theorem arr_entry_2 (c : Dev nD) :
    (((cfg0.win 2).arr.view.loc (c.tc : Thread nD τ)) ↦[(cfg0.win 2).arr.view.set]{(dats m 0 c).share 2} ((dats m 0 c).arrAt 2 0) : sProp 𝕄)
      = (((c : Thread nD τ).loc main_arg0) ↦{fullShare.right} V m c main_arg0) := by
  rw [(arr_whole0 2).set_eq_univ]; rfl
theorem arr_entry_3 (c : Dev nD) :
    (((cfg0.win 3).arr.view.loc (c.tc : Thread nD τ)) ↦[(cfg0.win 3).arr.view.set]{(dats m 0 c).share 3} ((dats m 0 c).arrAt 3 0) : sProp 𝕄)
      = (((c : Thread nD τ).loc main_v0) ↦{fullShare} V m c main_v0) := by
  rw [(arr_whole0 3).set_eq_univ]; rfl
theorem arr_entry_4 (c : Dev nD) :
    (((cfg0.win 4).arr.view.loc (c.tc : Thread nD τ)) ↦[(cfg0.win 4).arr.view.set]{(dats m 0 c).share 4} ((dats m 0 c).arrAt 4 0) : sProp 𝕄)
      = (((c : Thread nD τ).loc main_arg3) ↦{fullShare} V m c main_arg3) := by
  rw [(arr_whole0 4).set_eq_univ]; rfl
theorem arr_entry_5 (c : Dev nD) :
    (((cfg0.win 5).arr.view.loc (c.tc : Thread nD τ)) ↦[(cfg0.win 5).arr.view.set]{(dats m 0 c).share 5} ((dats m 0 c).arrAt 5 0) : sProp 𝕄)
      = (((c : Thread nD τ).loc main_v1) ↦{fullShare} V m c main_v1) := by
  rw [(arr_whole0 5).set_eq_univ]; rfl
theorem arr_entry_6 (c : Dev nD) :
    (((cfg0.win 6).arr.view.loc (c.tc : Thread nD τ)) ↦[(cfg0.win 6).arr.view.set]{(dats m 0 c).share 6} ((dats m 0 c).arrAt 6 0) : sProp 𝕄)
      = (((c : Thread nD τ).loc main_arg5) ↦{fullShare} V m c main_arg5) := by
  rw [(arr_whole0 6).set_eq_univ]; rfl
theorem arr_entry_7 (c : Dev nD) :
    (((cfg0.win 7).arr.view.loc (c.tc : Thread nD τ)) ↦[(cfg0.win 7).arr.view.set]{(dats m 0 c).share 7} ((dats m 0 c).arrAt 7 0) : sProp 𝕄)
      = (((c : Thread nD τ).loc main_v2) ↦{fullShare} V m c main_v2) := by
  rw [(arr_whole0 7).set_eq_univ]; rfl

/-- The seven buffers, each whole at the full share, make the eight windows' arrays: the node features' full share is
    its left half and its right half, one for each of its two windows; every other buffer goes to its one window. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list]
  unfold Dat.arrays
  rw [bigSep_W0]
  rw [arr_entry_0, arr_entry_1, arr_entry_2, arr_entry_3, arr_entry_4, arr_entry_5, arr_entry_6, arr_entry_7]
  iintro ⟨H1, H0, Hv0, H3, Hv1, H5, Hv2⟩
  ihave H0s := (pointsTo_share (PosShare.mem_left_op_right fullShare)).1 $$ H0
  icases H0s with ⟨H0l, H0r⟩
  isplitl [H1]; · iexact H1
  isplitl [H0l]; · iexact H0l
  isplitl [H0r]; · iexact H0r
  isplitl [Hv0]; · iexact Hv0
  isplitl [H3]; · iexact H3
  isplitl [Hv1]; · iexact Hv1
  isplitl [H5]; · iexact H5
  iexact Hv2

/-! ## The run -/

set_option backward.isDefEq.respectTransparency.types false in
/-- From any memory with every counter at zero, every weakly fair execution of the program terminates without a fault,
    every window's array ends at what the write-backs leave of the proof data, and every other unscoped buffer at what
    the call found in it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0
    (emb₁ : Emb (UR sig nD τ) (MT nD τ sig Unit (Elt F) ℕ (UR sig nD τ) ℕ)) defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun _ h => h)

/-- info: 'Cert.KernelIdeal.Run.run_main' depends on axioms: [propext, Classical.choice, Quot.sound] -/
#guard_msgs in #print axioms run_main

/-! ## The frame -/

/-- The program runs to the end and its six argument arrays end as launched: the four the call stages are inputs of
    their windows, never written; the two weight matrices pass the call by (it stages their transposes). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 rfl (by decide))).trans (V_main_arg2 m c),
      ((h c).1 4).trans (((dats m 0 c).arrAt_in 4 rfl _).trans ((A_eq m c 4).trans (V_main_arg3 m c))),
      ((h c).2 main_arg4 (Pipeline.mem_restRefs_of main_arg4 rfl (by decide))).trans (V_main_arg4 m c),
      ((h c).1 6).trans (((dats m 0 c).arrAt_in 6 rfl _).trans ((A_eq m c 6).trans (V_main_arg5 m c)))⟩)
    (run_main m ρ)

end Cert.KernelIdeal.Run

end
-- ==== Proof.Payload.lean ====
/-
  The edge-layer kernel's body, read at one element, on the extended reals.

  The body flattens its `[32, 256, 128]` tile of edge features to `[8192, 128]` (row `p = 256·r + s` is edge `(r, s)`),
  multiplies by the transposed edge weights, and casts back; it multiplies the tile's 32 node rows and the batch entry's
  256 node rows by the transposed node weights, adds the node bias to each and the edge bias to the second, and adds
  the three together, the first node term broadcast along the tile's columns and the second along its rows. So the element
  `(r, s, o)` of the result is

      (∑ₖ edge[r,s,k]·Uᵀ[k,o]  +  (∑ₖ rows[r,k]·Vᵀ[k,o] + V_b[o]))  +  ((∑ₖ cols[s,k]·Vᵀ[k,o] + V_b[o]) + U_b[o]),

  every change of float format the identity and each product into a zero accumulator its plain sum.
-/
import proofs.«138836_j2001454760694_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Re-layings read at an element -/

section Layout
variable {α : Type}

/-- Edge `(r, s)` of the tile is row `256·r + s` of the flattened tile. -/
theorem flatten_apply (x : S32x256x128.Idx → α) (h : S32x256x128.ShapeCasts S8192x128) (r : Fin 32) (s : Fin 256) (k : Fin 128)
    (p : Fin 8192) (hp : p.val = r.val * 256 + s.val) : shapeCast S8192x128 x h (ix2 p k) = x (ix3 r s k) :=
  shapeCast_apply x h _ _ (by
    rw [Shape.rowMajor_val_three, Shape.rowMajor_val_two]
    show (r.val * 256 + s.val) * 128 + k.val = p.val * 128 + k.val
    rw [hp])

/-- And back: row `256·r + s` of the flat product is the tile's `(r, s)`. -/
theorem unflatten_apply (x : S8192x128.Idx → α) (h : S8192x128.ShapeCasts S32x256x128) (r : Fin 32) (s : Fin 256) (o : Fin 128)
    (p : Fin 8192) (hp : p.val = r.val * 256 + s.val) : shapeCast S32x256x128 x h (ix3 r s o) = x (ix2 p o) :=
  shapeCast_apply x h _ _ (by
    rw [Shape.rowMajor_val_two, Shape.rowMajor_val_three]
    show p.val * 128 + o.val = (r.val * 256 + s.val) * 128 + o.val
    rw [hp])

/-- A unit column axis put between the rows and the features. -/
theorem keepdim_apply (x : S32x128.Idx → α) (h : S32x128.ShapeCasts S32x1x128) (r : Fin 32) (u : Fin 1) (o : Fin 128) :
    shapeCast S32x1x128 x h (ix3 r u o) = x (ix2 r o) :=
  shapeCast_apply x h _ _ (by
    have hu : u.val = 0 := by omega
    rw [Shape.rowMajor_val_two, Shape.rowMajor_val_three]
    show r.val * 128 + o.val = (r.val * 1 + u.val) * 128 + o.val
    rw [hu, Nat.mul_one, Nat.add_zero])

/-- One value per row and feature, repeated along the columns. -/
theorem along_cols_apply (x : S32x1x128.Idx → α) (h : S32x1x128.Broadcasts S32x256x128) (r : Fin 32) (s : Fin 256) (o : Fin 128) :
    broadcastTo S32x256x128 x h (ix3 r s o) = x (ix3 r (0 : Fin 1) o) := by
  refine broadcastTo_apply x h (ix3 r s o) (ix3 r (0 : Fin 1) o) fun ax => ?_
  match ax with
  | ⟨0, _⟩ => rfl
  | ⟨1, _⟩ => rfl
  | ⟨2, _⟩ => rfl

/-- One value per column and feature, repeated along the rows. -/
theorem along_rows_apply (x : S1x256x128.Idx → α) (h : S1x256x128.Broadcasts S32x256x128) (r : Fin 32) (s : Fin 256) (o : Fin 128) :
    broadcastTo S32x256x128 x h (ix3 r s o) = x (ix3 (0 : Fin 1) s o) := by
  refine broadcastTo_apply x h (ix3 r s o) (ix3 (0 : Fin 1) s o) fun ax => ?_
  match ax with
  | ⟨0, _⟩ => rfl
  | ⟨1, _⟩ => rfl
  | ⟨2, _⟩ => rfl

end Layout

/-! ## The three products, as sums -/

theorem lhs8192_row (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs8192_contr (j : S8192x128.Idx) (q : dot_S8192x128_S128x128_S8192x128_1_0_0_1_n_n.contr.Idx) : (dot_S8192x128_S128x128_S8192x128_1_0_0_1_n_n.lhsIdx j q 1).val = (q ⟨0, by decide⟩).val :=
  dot_S8192x128_S128x128_S8192x128_1_0_0_1_n_n.lhsIdx_val_of_single rfl j q
theorem rhs8192_contr (j : S8192x128.Idx) (q : dot_S8192x128_S128x128_S8192x128_1_0_0_1_n_n.contr.Idx) : (dot_S8192x128_S128x128_S8192x128_1_0_0_1_n_n.rhsIdx j q 0).val = (q ⟨0, by decide⟩).val :=
  dot_S8192x128_S128x128_S8192x128_1_0_0_1_n_n.rhsIdx_val_of_single rfl j q
theorem rhs8192_col (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl
/-- A `[8192, 128] · [128, 128]` product into the zero accumulator, at `(p, o)`: row `p` of the left operand against
    column `o` of the right one. -/
theorem matmul8192_apply (l : FVec Ideal S8192x128 .bf16) (w : FVec Ideal S128x128 .bf16) (p : Fin 8192) (o : Fin 128) :
    matmul (F := Ideal) dot_S8192x128_S128x128_S8192x128_1_0_0_1_n_n none l w (constant (F := Ideal) S8192x128 .f32 0x00000000#32) (ix2 p o)
      = ∑ k : Fin 128, l (ix2 p k) * w (ix2 k o) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p o) ((contrEquiv1 dot_S8192x128_S128x128_S8192x128_1_0_0_1_n_n 128 rfl rfl).symm k) = ix2 p k := funext fun a => Fin.ext (by
    match a with
    | ⟨0, _⟩ => exact lhs8192_row _ _
    | ⟨1, _⟩ => exact (lhs8192_contr _ _).trans hk)
  have er : dot_S8192x128_S128x128_S8192x128_1_0_0_1_n_n.rhsIdx (ix2 p o) ((contrEquiv1 dot_S8192x128_S128x128_S8192x128_1_0_0_1_n_n 128 rfl rfl).symm k) = ix2 k o := funext fun a => Fin.ext (by
    match a with
    | ⟨0, _⟩ => exact (rhs8192_contr _ _).trans hk
    | ⟨1, _⟩ => exact rhs8192_col _ _)
  rw [el, er]

theorem lhs32_row (j : S32x128.Idx) (q : dot_S32x128_S128x128_S32x128_1_0_0_1_n_n.contr.Idx) : (dot_S32x128_S128x128_S32x128_1_0_0_1_n_n.lhsIdx j q 0).val = (j 0).val := by
  unfold DotDims.lhsIdx
  rw [dif_neg (show ¬(0 : Fin S32x128.rank) ∈ dot_S32x128_S128x128_S32x128_1_0_0_1_n_n.lhsBatch by decide), dif_pos (show (0 : Fin S32x128.rank) ∈ dot_S32x128_S128x128_S32x128_1_0_0_1_n_n.lhsNonContracting by decide)]
  rfl
theorem lhs32_contr (j : S32x128.Idx) (q : dot_S32x128_S128x128_S32x128_1_0_0_1_n_n.contr.Idx) : (dot_S32x128_S128x128_S32x128_1_0_0_1_n_n.lhsIdx j q 1).val = (q ⟨0, by decide⟩).val :=
  dot_S32x128_S128x128_S32x128_1_0_0_1_n_n.lhsIdx_val_of_single rfl j q
theorem rhs32_contr (j : S32x128.Idx) (q : dot_S32x128_S128x128_S32x128_1_0_0_1_n_n.contr.Idx) : (dot_S32x128_S128x128_S32x128_1_0_0_1_n_n.rhsIdx j q 0).val = (q ⟨0, by decide⟩).val :=
  dot_S32x128_S128x128_S32x128_1_0_0_1_n_n.rhsIdx_val_of_single rfl j q
theorem rhs32_col (j : S32x128.Idx) (q : dot_S32x128_S128x128_S32x128_1_0_0_1_n_n.contr.Idx) : (dot_S32x128_S128x128_S32x128_1_0_0_1_n_n.rhsIdx j q 1).val = (j 1).val := by
  unfold DotDims.rhsIdx
  rw [dif_neg (show ¬(1 : Fin S128x128.rank) ∈ dot_S32x128_S128x128_S32x128_1_0_0_1_n_n.rhsBatch by decide), dif_pos (show (1 : Fin S128x128.rank) ∈ dot_S32x128_S128x128_S32x128_1_0_0_1_n_n.rhsNonContracting by decide)]
  rfl
/-- A `[32, 128] · [128, 128]` product into the zero accumulator, at `(p, o)`: row `p` of the left operand against
    column `o` of the right one. -/
theorem matmul32_apply (l : FVec Ideal S32x128 .bf16) (w : FVec Ideal S128x128 .bf16) (p : Fin 32) (o : Fin 128) :
    matmul (F := Ideal) dot_S32x128_S128x128_S32x128_1_0_0_1_n_n none l w (constant (F := Ideal) S32x128 .f32 0x00000000#32) (ix2 p o)
      = ∑ k : Fin 128, l (ix2 p k) * w (ix2 k o) := by
  simp only [matmul]
  rw [Ideal.matmul_constant_zero_apply, ← Equiv.sum_comp (contrEquiv1 dot_S32x128_S128x128_S32x128_1_0_0_1_n_n 128 rfl rfl).symm]
  refine Finset.sum_congr rfl fun k _ => ?_
  have hk := contrEquiv1_symm_val dot_S32x128_S128x128_S32x128_1_0_0_1_n_n 128 rfl rfl k
  have el : dot_S32x128_S128x128_S32x128_1_0_0_1_n_n.lhsIdx (ix2 p o) ((contrEquiv1 dot_S32x128_S128x128_S32x128_1_0_0_1_n_n 128 rfl rfl).symm k) = ix2 p k := funext fun a => Fin.ext (by
    match a with
    | ⟨0, _⟩ => exact lhs32_row _ _
    | ⟨1, _⟩ => exact (lhs32_contr _ _).trans hk)
  have er : dot_S32x128_S128x128_S32x128_1_0_0_1_n_n.rhsIdx (ix2 p o) ((contrEquiv1 dot_S32x128_S128x128_S32x128_1_0_0_1_n_n 128 rfl rfl).symm k) = ix2 k o := funext fun a => Fin.ext (by
    match a with
    | ⟨0, _⟩ => exact (rhs32_contr _ _).trans hk
    | ⟨1, _⟩ => exact rhs32_col _ _)
  rw [el, er]

theorem lhs256_row (j : S256x128.Idx) (q : dot_S256x128_S128x128_S256x128_1_0_0_1_n_n.contr.Idx) : (dot_S256x128_S128x128_S256x128_1_0_0_1_n_n.lhsIdx j q 0).val = (j 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs256_contr (j : S256x128.Idx) (q : dot_S256x128_S128x128_S256x128_1_0_0_1_n_n.contr.Idx) : (dot_S256x128_S128x128_S256x128_1_0_0_1_n_n.lhsIdx j q 1).val = (q ⟨0, by decide⟩).val :=
  dot_S256x128_S128x128_S256x128_1_0_0_1_n_n.lhsIdx_val_of_single rfl j q
theorem rhs256_contr (j : S256x128.Idx) (q : dot_S256x128_S128x128_S256x128_1_0_0_1_n_n.contr.Idx) : (dot_S256x128_S128x128_S256x128_1_0_0_1_n_n.rhsIdx j q 0).val = (q ⟨0, by decide⟩).val :=
  dot_S256x128_S128x128_S256x128_1_0_0_1_n_n.rhsIdx_val_of_single rfl j q
theorem rhs256_col (j : S256x128.Idx) (q : dot_S256x128_S128x128_S256x128_1_0_0_1_n_n.contr.Idx) : (dot_S256x128_S128x128_S256x128_1_0_0_1_n_n.rhsIdx j q 1).val = (j 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
/-- A `[256, 128] · [128, 128]` product into the zero accumulator, at `(p, o)`: row `p` of the left operand against
    column `o` of the right one. -/
theorem matmul256_apply (l : FVec Ideal S256x128 .bf16) (w : FVec Ideal S128x128 .bf16) (p : Fin 256) (o : Fin 128) :
    matmul (F := Ideal) dot_S256x128_S128x128_S256x128_1_0_0_1_n_n none l w (constant (F := Ideal) S256x128 .f32 0x00000000#32) (ix2 p o)
      = ∑ k : Fin 128, l (ix2 p k) * w (ix2 k o) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 p o) ((contrEquiv1 dot_S256x128_S128x128_S256x128_1_0_0_1_n_n 128 rfl rfl).symm k) = ix2 p k := funext fun a => Fin.ext (by
    match a with
    | ⟨0, _⟩ => exact lhs256_row _ _
    | ⟨1, _⟩ => exact (lhs256_contr _ _).trans hk)
  have er : dot_S256x128_S128x128_S256x128_1_0_0_1_n_n.rhsIdx (ix2 p o) ((contrEquiv1 dot_S256x128_S128x128_S256x128_1_0_0_1_n_n 128 rfl rfl).symm k) = ix2 k o := funext fun a => Fin.ext (by
    match a with
    | ⟨0, _⟩ => exact (rhs256_contr _ _).trans hk
    | ⟨1, _⟩ => exact rhs256_col _ _)
  rw [el, er]

/-! ## The body's value at an element -/

/-- The body's stored value at `(z, r, s, o)` of the output block, from the seven loaded blocks (the edge tile, the
    transposed edge weights, the transposed node weights, the node bias, the edge bias, the tile's node rows, the batch
    entry's node rows). -/
theorem pay_apply (tile : Vec Ideal S1x32x256x128 .f32) (uT : Vec Ideal S128x128 .f32) (vT : Vec Ideal S128x128 .f32)
    (vb : Vec Ideal S128 .f32) (ub : Vec Ideal S128 .f32) (rows : Vec Ideal S1x32x128 .f32) (cols : Vec Ideal S1x256x128 .f32)
    (z : Fin 1) (r : Fin 32) (s : Fin 256) (o : Fin 128) :
    k0_pay1 (F := Ideal) (k0_pay2 tile uT vT vb ub rows cols) (ix4 z r s o)
      = ((∑ k : Fin 128, tile (ix4 (0 : Fin 1) r s k) * uT (ix2 k o))
          + ((∑ k : Fin 128, rows (ix3 (0 : Fin 1) r k) * vT (ix2 k o)) + vb (ix1 o)))
        + (((∑ k : Fin 128, cols (ix3 (0 : Fin 1) s k) * vT (ix2 k o)) + vb (ix1 o)) + ub (ix1 o)) := by
  unfold k0_pay1 k0_pay2
  dsimp only
  rw [shapeCast_abc_1abc_apply, addf_apply, addf_apply]
  rw [unflatten_apply _ _ r s o ⟨r.val * 256 + s.val, by have := r.isLt; have := s.isLt; omega⟩ rfl, matmul8192_apply]
  rw [along_cols_apply, keepdim_apply, addf_apply, matmul32_apply, broadcastTo_1b_ab_apply, shapeCast_a_1a_apply]
  rw [along_rows_apply, shapeCast_ab_1ab_apply, addf_apply, addf_apply, matmul256_apply, broadcastTo_1b_ab_apply, shapeCast_a_1a_apply,
    broadcastTo_1b_ab_apply, shapeCast_a_1a_apply]
  simp only [truncf_apply, shapeCast_self, shapeCast_1ab_ab_apply,
    flatten_apply _ _ r s _ ⟨r.val * 256 + s.val, by have := r.isLt; have := s.isLt; omega⟩ rfl, shapeCast_1abc_abc_apply]

end Cert.KernelIdeal.Payload

end
-- ==== Proof.Spec.lean ====
/-
  The edge-feature layer as one function of the six argument arrays, element by element, on the extended reals.

  For a batch `b`, a pair of nodes `(i, j)` and an output feature `o`:
    * the EDGE term is the contraction of the edge's feature row with row `o` of the edge weights,
        `∑ h, e[b,i,j,h] · U_w[o,h]`;
    * the NODE term of a node `n` is the contraction of the node's feature row with row `o` of the node weights, plus the
      node bias, `(∑ h, x[b,n,h] · V_w[o,h]) + V_b[o]`;
    * the layer's value is `((edge + U_b[o]) + node i) + node j`.
  Both programs compute this; they differ only in where the edge bias `U_b[o]` enters the sum (`regroup`), which on the
  extended reals needs nothing but the commutativity and associativity of addition — no finiteness.
-/
import Idealize.ShloMosaic.PureOps.Ideal
import Idealize.ShloMosaic.Lib.ValueIdx

noncomputable section

open scoped BigOperators

namespace Cert.EdgeSpec

open Idealize.ShloMosaic Idealize.ShloMosaic.ValueIdx

/-- Node features `x[b, n, h]`. -/
abbrev SNode : Shape := ⟨3, ![8, 256, 128]⟩
/-- Edge features `e[b, i, j, h]`, and the layer's result `[b, i, j, o]`. -/
abbrev SEdge : Shape := ⟨4, ![8, 256, 256, 128]⟩
/-- A weight matrix `W[o, h]`. -/
abbrev SWeight : Shape := ⟨2, ![128, 128]⟩
/-- A bias `[o]`. -/
abbrev SBias : Shape := ⟨1, ![128]⟩

/-- The contraction of edge `(b, i, j)`'s feature row with row `o` of the edge weights. -/
def edgeTerm (e : FVec Ideal SEdge .f32) (Uw : FVec Ideal SWeight .f32) (b : Fin 8) (i j : Fin 256) (o : Fin 128) : EReal :=
  ∑ h : Fin 128, e (ix4 b i j h) * Uw (ix2 o h)

/-- The contraction of node `(b, n)`'s feature row with row `o` of the node weights, plus the node bias. -/
def nodeTerm (x : FVec Ideal SNode .f32) (Vw : FVec Ideal SWeight .f32) (Vb : FVec Ideal SBias .f32) (b : Fin 8) (n : Fin 256) (o : Fin 128) : EReal :=
  (∑ h : Fin 128, x (ix3 b n h) * Vw (ix2 o h)) + Vb (ix1 o)

/-- The layer: `((edge + edge bias) + node i) + node j` at every `[b, i, j, o]`. -/
def edgeLayer (x : FVec Ideal SNode .f32) (e : FVec Ideal SEdge .f32) (Uw : FVec Ideal SWeight .f32) (Ub : FVec Ideal SBias .f32)
    (Vw : FVec Ideal SWeight .f32) (Vb : FVec Ideal SBias .f32) : FVec Ideal SEdge .f32 := fun k =>
  ((edgeTerm e Uw (k 0) (k 1) (k 2) (k 3) + Ub (ix1 (k 3))) + nodeTerm x Vw Vb (k 0) (k 1) (k 3)) + nodeTerm x Vw Vb (k 0) (k 2) (k 3)

/-- Adding the edge bias to the second node term instead of to the edge term gives the same sum: addition on the extended
    reals is commutative and associative (with `-∞` absorbing), so no operand need be finite. -/
theorem regroup (a u p q : EReal) : (a + p) + (q + u) = ((a + u) + p) + q := by
  rw [add_assoc a u p, add_comm u p, ← add_assoc a p u, add_assoc (a + p) u q, add_comm u q]

end Cert.EdgeSpec

end
-- ==== Proof.KernelIdealValue.lean ====
/-
  What the edge-layer kernel's result array holds after the run, on the extended reals: the layer of the argument arrays.

  Grid point `t = (b, T)` works on the edges `(b, i, j)` with `32·T ≤ i < 32·T + 32`, every `j`: its edge tile and its
  output block are block `(b, T, 0, 0)` of their arrays, its node rows block `(b, T, 0)` of the node features and its
  batch entry block `(b, 0, 0)` of the same array; the weights and biases are whole. The weights it loads are the
  TRANSPOSES of the argument matrices, written by the two host operations before the call: `Uᵀ[k, o] = U_w[o, k]`. So
  the body's value at `(r, s, o)` of the block (module `Payload`) is the layer at `(b, 32·T + r, s, o)`, but for the
  place of the edge bias in the sum (`Cert.EdgeSpec.regroup`); the 64 output blocks tile the result array, so it ends
  holding the layer everywhere.
-/
import proofs.«138836_j2001454760694_2_alg».proof.Proof.KernelIdealRun
import proofs.«138836_j2001454760694_2_alg».proof.Proof.Payload
import proofs.«138836_j2001454760694_2_alg».proof.Proof.Spec
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.EdgeValue

open Cert.KernelIdeal Cert.KernelIdeal.Gen Cert.KernelIdeal.Run Cert.KernelIdeal.Payload Cert.EdgeSpec
open Idealize.ShloMosaic Idealize.ShloMosaic.TcCoe Idealize.ShloMosaic.ValueIdx Idealize.SL.Sem
open Idealize.ShloMosaic.Pipeline (Dat Cfg Window)

/-! ## One block's value is the layer at the block's place -/

/-- If the seven loaded blocks hold, at the entries the element `(r, s, o)` reads, the argument arrays' entries of edge
    `(b, i, s)` — the weights transposed —, the body's value there is the layer at `(b, i, s, o)`. -/
theorem block_value (x : FVec Ideal SNode .f32) (e : FVec Ideal SEdge .f32) (Uw : FVec Ideal SWeight .f32) (Ub : FVec Ideal SBias .f32)
    (Vw : FVec Ideal SWeight .f32) (Vb : FVec Ideal SBias .f32)
    (tile : Vec Ideal S1x32x256x128 .f32) (uT : Vec Ideal S128x128 .f32) (vT : Vec Ideal S128x128 .f32)
    (vb : Vec Ideal S128 .f32) (ub : Vec Ideal S128 .f32) (rows : Vec Ideal S1x32x128 .f32) (cols : Vec Ideal S1x256x128 .f32)
    (z : Fin 1) (r : Fin 32) (s : Fin 256) (o : Fin 128) (b : Fin 8) (i : Fin 256)
    (htile : ∀ k : Fin 128, tile (ix4 (0 : Fin 1) r s k) = e (ix4 b i s k))
    (huT : ∀ k : Fin 128, uT (ix2 k o) = Uw (ix2 o k)) (hvT : ∀ k : Fin 128, vT (ix2 k o) = Vw (ix2 o k))
    (hvb : vb (ix1 o) = Vb (ix1 o)) (hub : ub (ix1 o) = Ub (ix1 o))
    (hrows : ∀ k : Fin 128, rows (ix3 (0 : Fin 1) r k) = x (ix3 b i k))
    (hcols : ∀ k : Fin 128, cols (ix3 (0 : Fin 1) s k) = x (ix3 b s k)) :
    k0_pay1 (F := Ideal) (k0_pay2 tile uT vT vb ub rows cols) (ix4 z r s o) = edgeLayer x e Uw Ub Vw Vb (ix4 b i s o) := by
  rw [pay_apply]
  simp only [htile, huT, hvT, hvb, hub, hrows, hcols]
  exact regroup _ _ _ _

variable (m : (ℓ : Loc nD τ sig) → Buf (Elt Ideal) ℓ) (ρ : Dev nD → PrngReg)

/-! ## The arrays the call finds -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The first host operation leaves the transposed edge weights in its result. -/
theorem V_uT (c : Dev nD) : (V m c main_v0 : FVec Ideal S128x128 .f32)
    = transpose S128x128 [1, 0] (m ((c : Thread nD τ).loc main_arg2)) transposes_S128x128_S128x128_1_0 := by
  dsimp only [V, hostOps0]; after_results
/-- The second leaves the transposed node weights in its. -/
theorem V_vT (c : Dev nD) : (V m c main_v1 : FVec Ideal S128x128 .f32)
    = transpose S128x128 [1, 0] (m ((c : Thread nD τ).loc main_arg4)) transposes_S128x128_S128x128_1_0 := by
  dsimp only [V, hostOps0]; after_results

/-- The layer of the argument arrays as launched on core `c`. -/
def layer (c : Dev nD) : Buf (Elt Ideal) ((c : Thread nD τ).loc main_v2) :=
  edgeLayer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The block indices over the grid -/

/-- At every grid point: the edge tile and the node rows move with the output block, the batch entry with its batch
    coordinate only, the weights and biases not at all; the output block's index is `(b, T, 0, 0)` with `b, T < 8`. -/
theorem idx_facts : ∀ t : Fin cfg0.N,
    win0_0.index t (0 : Fin 4) = win0_7.index t (0 : Fin 4) ∧ win0_0.index t (1 : Fin 4) = win0_7.index t (1 : Fin 4)
    ∧ win0_0.index t (2 : Fin 4) = 0 ∧ win0_0.index t (3 : Fin 4) = 0
    ∧ win0_7.index t (2 : Fin 4) = 0 ∧ win0_7.index t (3 : Fin 4) = 0
    ∧ win0_1.index t (0 : Fin 3) = win0_7.index t (0 : Fin 4) ∧ win0_1.index t (1 : Fin 3) = win0_7.index t (1 : Fin 4) ∧ win0_1.index t (2 : Fin 3) = 0
    ∧ win0_2.index t (0 : Fin 3) = win0_7.index t (0 : Fin 4) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) ≤ 7 ∧ win0_7.index t (1 : Fin 4) ≤ 7 :=
  (by decide +kernel : ∀ t : Fin grid0.N, _)

/-- Every `(b, T)` is some point's. -/
theorem idx_onto : ∀ (q0 : Fin 8) (q1 : Fin 8), ∃ t : Fin cfg0.N, win0_7.index t = ![q0.val, q1.val, 0, 0] :=
  (by decide +kernel : ∀ (q0 : Fin 8) (q1 : Fin 8), ∃ t : Fin grid0.N, win0_7.index t = ![q0.val, q1.val, 0, 0])

/-! ## The input blocks, read at the entries an element uses -/

/-- The edge tile at `(r, s, k)` is the edge features at `(b, 32·T + r, s, k)`. -/
theorem read_tile (c : Dev nD) (t : Fin cfg0.N) (z : Fin 1) (r : Fin 32) (s : Fin 256) (k : Fin 128) (b : Fin 8) (i : Fin 256)
    (hb : b.val = win0_7.index t (0 : Fin 4)) (hi : i.val = win0_7.index t (1 : Fin 4) * 32 + r.val) :
    iblk m c 0 t (ix4 z r s k) = m ((c : Thread nD τ).loc main_arg1) (ix4 b i s k) := by
  obtain ⟨f0, f1, f2, f3, f4, f5, f6, f7, f8, f9, f10, f11, f12, f13, f14, f15, f16, f17, f18, f19⟩ := idx_facts t
  show V m c main_arg1 (((cfg0.win 0).blk t).view.emb (ix4 z r s k)) = _
  rw [V_main_arg1]
  refine congrArg _ (funext fun a => Fin.ext ?_)
  match a with
  | ⟨0, _⟩ => show win0_0.index t (0 : Fin 4) * 1 + 1 * z.val = b.val; omega
  | ⟨1, _⟩ => show win0_0.index t (1 : Fin 4) * 32 + 1 * r.val = i.val; omega
  | ⟨2, _⟩ => show win0_0.index t (2 : Fin 4) * 256 + 1 * s.val = s.val; omega
  | ⟨3, _⟩ => show win0_0.index t (3 : Fin 4) * 128 + 1 * k.val = k.val; omega

/-- The tile's node rows at `(r, k)` are the node features at `(b, 32·T + r, k)`. -/
theorem read_rows (c : Dev nD) (t : Fin cfg0.N) (z : Fin 1) (r : Fin 32) (k : Fin 128) (b : Fin 8) (i : Fin 256)
    (hb : b.val = win0_7.index t (0 : Fin 4)) (hi : i.val = win0_7.index t (1 : Fin 4) * 32 + r.val) :
    iblk m c 1 t (ix3 z r k) = m ((c : Thread nD τ).loc main_arg0) (ix3 b i k) := by
  obtain ⟨f0, f1, f2, f3, f4, f5, f6, f7, f8, f9, f10, f11, f12, f13, f14, f15, f16, f17, f18, f19⟩ := idx_facts t
  show V m c main_arg0 (((cfg0.win 1).blk t).view.emb (ix3 z r k)) = _
  rw [V_main_arg0]
  refine congrArg _ (funext fun a => Fin.ext ?_)
  match a with
  | ⟨0, _⟩ => show win0_1.index t (0 : Fin 3) * 1 + 1 * z.val = b.val; omega
  | ⟨1, _⟩ => show win0_1.index t (1 : Fin 3) * 32 + 1 * r.val = i.val; omega
  | ⟨2, _⟩ => show win0_1.index t (2 : Fin 3) * 128 + 1 * k.val = k.val; omega

/-- The batch entry's node rows at `(s, k)` are the node features at `(b, s, k)`. -/
theorem read_cols (c : Dev nD) (t : Fin cfg0.N) (z : Fin 1) (s : Fin 256) (k : Fin 128) (b : Fin 8)
    (hb : b.val = win0_7.index t (0 : Fin 4)) :
    iblk m c 2 t (ix3 z s k) = m ((c : Thread nD τ).loc main_arg0) (ix3 b s k) := by
  obtain ⟨f0, f1, f2, f3, f4, f5, f6, f7, f8, f9, f10, f11, f12, f13, f14, f15, f16, f17, f18, f19⟩ := idx_facts t
  show V m c main_arg0 (((cfg0.win 2).blk t).view.emb (ix3 z s k)) = _
  rw [V_main_arg0]
  refine congrArg _ (funext fun a => Fin.ext ?_)
  match a with
  | ⟨0, _⟩ => show win0_2.index t (0 : Fin 3) * 1 + 1 * z.val = b.val; omega
  | ⟨1, _⟩ => show win0_2.index t (1 : Fin 3) * 256 + 1 * s.val = s.val; omega
  | ⟨2, _⟩ => show win0_2.index t (2 : Fin 3) * 128 + 1 * k.val = k.val; omega

/-- The edge weights the body loads, at `(k, o)`, are the argument's at `(o, k)`. -/
theorem read_uT (c : Dev nD) (t : Fin cfg0.N) (k o : Fin 128) :
    iblk m c 3 t (ix2 k o) = m ((c : Thread nD τ).loc main_arg2) (ix2 o k) := by
  obtain ⟨f0, f1, f2, f3, f4, f5, f6, f7, f8, f9, f10, f11, f12, f13, f14, f15, f16, f17, f18, f19⟩ := idx_facts t
  show (V m c main_v0 : FVec Ideal S128x128 .f32) (((cfg0.win 3).blk t).view.emb (ix2 k o)) = _
  rw [V_uT]
  have he : ((cfg0.win 3).blk t).view.emb (ix2 k o) = ix2 k o := funext fun a => Fin.ext (by
    match a with
    | ⟨0, _⟩ => show win0_3.index t (0 : Fin 2) * 128 + 1 * k.val = k.val; omega
    | ⟨1, _⟩ => show win0_3.index t (1 : Fin 2) * 128 + 1 * o.val = o.val; omega)
  rw [he]
  exact transpose_ix2_apply _ _ k o

/-- The node weights likewise. -/
theorem read_vT (c : Dev nD) (t : Fin cfg0.N) (k o : Fin 128) :
    iblk m c 5 t (ix2 k o) = m ((c : Thread nD τ).loc main_arg4) (ix2 o k) := by
  obtain ⟨f0, f1, f2, f3, f4, f5, f6, f7, f8, f9, f10, f11, f12, f13, f14, f15, f16, f17, f18, f19⟩ := idx_facts t
  show (V m c main_v1 : FVec Ideal S128x128 .f32) (((cfg0.win 5).blk t).view.emb (ix2 k o)) = _
  rw [V_vT]
  have he : ((cfg0.win 5).blk t).view.emb (ix2 k o) = ix2 k o := funext fun a => Fin.ext (by
    match a with
    | ⟨0, _⟩ => show win0_5.index t (0 : Fin 2) * 128 + 1 * k.val = k.val; omega
    | ⟨1, _⟩ => show win0_5.index t (1 : Fin 2) * 128 + 1 * o.val = o.val; omega)
  rw [he]
  exact transpose_ix2_apply _ _ k o

/-- The edge bias is loaded whole. -/
theorem read_ub (c : Dev nD) (t : Fin cfg0.N) (o : Fin 128) :
    iblk m c 4 t (ix1 o) = m ((c : Thread nD τ).loc main_arg3) (ix1 o) := by
  obtain ⟨f0, f1, f2, f3, f4, f5, f6, f7, f8, f9, f10, f11, f12, f13, f14, f15, f16, f17, f18, f19⟩ := idx_facts t
  show V m c main_arg3 (((cfg0.win 4).blk t).view.emb (ix1 o)) = _
  rw [V_main_arg3]
  refine congrArg _ (funext fun a => Fin.ext ?_)
  match a with
  | ⟨0, _⟩ => show win0_4.index t (0 : Fin 1) * 128 + 1 * o.val = o.val; omega

/-- The node bias is loaded whole. -/
theorem read_vb (c : Dev nD) (t : Fin cfg0.N) (o : Fin 128) :
    iblk m c 6 t (ix1 o) = m ((c : Thread nD τ).loc main_arg5) (ix1 o) := by
  obtain ⟨f0, f1, f2, f3, f4, f5, f6, f7, f8, f9, f10, f11, f12, f13, f14, f15, f16, f17, f18, f19⟩ := idx_facts t
  show V m c main_arg5 (((cfg0.win 6).blk t).view.emb (ix1 o)) = _
  rw [V_main_arg5]
  refine congrArg _ (funext fun a => Fin.ext ?_)
  match a with
  | ⟨0, _⟩ => show win0_6.index t (0 : Fin 1) * 128 + 1 * o.val = o.val; omega

/-! ## What a point writes back, and the whole array -/

/-- Point `t` writes back block `t` of the layer. -/
theorem flushed_eq (c : Dev nD) (t : Fin cfg0.N) :
    (dats m 0 c).flushed 7 t = ((cfg0.win 7).blk t).view.read (Elt Ideal) (layer m c) := by
  show (cfg0.win 7).cut (grid0.coords t) ((dats m 0 c).after 7 t) = _
  rw [after_7]
  unfold outBlock
  rw [View.canon_unit_zero hz4]
  simp only [View.ld_unit_zero (S := S1x32x256x128) hz4, View.ld_unit_zero (S := S1x32x128) hz3, View.ld_unit_zero (S := S1x256x128) hz3,
    View.ld_unit_zero (S := S128x128) hz2, View.ld_unit_zero (S := S128) hz1]
  obtain ⟨f0, f1, f2, f3, f4, f5, f6, f7, f8, f9, f10, f11, f12, f13, f14, f15, f16, f17, f18, f19⟩ := idx_facts t
  funext j
  have hj0 : (j 0).val < 1 := (j 0).isLt
  have hj1 : (j 1).val < 32 := (j 1).isLt
  have hj2 : (j 2).val < 256 := (j 2).isLt
  have hj3 : (j 3).val < 128 := (j 3).isLt
  have hb : win0_7.index t (0 : Fin 4) < 8 := by omega
  have hi : win0_7.index t (1 : Fin 4) * 32 + (j 1).val < 256 := by omega
  have hL : (cfg0.win 7).xinj (grid0.coords t) j
      = ix4 (⟨(j 0).val, hj0⟩ : Fin 1) (⟨(j 1).val, hj1⟩ : Fin 32) (⟨(j 2).val, hj2⟩ : Fin 256) (⟨(j 3).val, hj3⟩ : Fin 128) :=
    funext fun a => Fin.ext (by match a with | ⟨0, _⟩ => rfl | ⟨1, _⟩ => rfl | ⟨2, _⟩ => rfl | ⟨3, _⟩ => rfl)
  have hR : ((cfg0.win 7).blk t).view.emb j
      = ix4 (⟨win0_7.index t (0 : Fin 4), hb⟩ : Fin 8) (⟨win0_7.index t (1 : Fin 4) * 32 + (j 1).val, hi⟩ : Fin 256)
          (⟨(j 2).val, hj2⟩ : Fin 256) (⟨(j 3).val, hj3⟩ : Fin 128) :=
    funext fun a => Fin.ext (by
      match a with
      | ⟨0, _⟩ => show win0_7.index t (0 : Fin 4) * 1 + 1 * (j 0).val = win0_7.index t (0 : Fin 4); omega
      | ⟨1, _⟩ => show win0_7.index t (1 : Fin 4) * 32 + 1 * (j 1).val = win0_7.index t (1 : Fin 4) * 32 + (j 1).val; omega
      | ⟨2, _⟩ => show win0_7.index t (2 : Fin 4) * 256 + 1 * (j 2).val = (j 2).val; omega
      | ⟨3, _⟩ => show win0_7.index t (3 : Fin 4) * 128 + 1 * (j 3).val = (j 3).val; omega)
  show k0_pay1 (F := Ideal) _ ((cfg0.win 7).xinj (grid0.coords t) j) = layer m c (((cfg0.win 7).blk t).view.emb j)
  rw [hL, hR]
  unfold layer
  exact block_value _ _ _ _ _ _ _ _ _ _ _ _ _ _ _ _ _ _ _
    (fun k => read_tile m c t _ _ _ k _ _ rfl rfl) (fun k => read_uT m c t k _) (fun k => read_vT m c t k _)
    (read_vb m c t _) (read_ub m c t _) (fun k => read_rows m c t _ _ k _ _ rfl rfl) (fun k => read_cols m c t _ _ k _ rfl)

/-- An index of the result array is in point `t`'s block iff each coordinate is in the block's range on its axis. -/
theorem mem_blk (t : Fin cfg0.N) (i : S8x256x256x128.Idx) :
    i ∈ ((cfg0.win 7).blk t).view.set ↔ ∀ a : Fin 4, win0_7.index t a * S1x32x256x128.size a ≤ (i a).val
      ∧ (i a).val < win0_7.index t a * S1x32x256x128.size a + S1x32x256x128.size a := by
  show i ∈ ((View.whole main_v2).slice (win0_7.rect t)).set ↔ _
  rw [View.set_slice_whole, Rect.mem_set_unit]
  exact Iff.rfl

/-- The 64 blocks tile the result array: edge `(b, i, j)` is in the block of the point `(b, i / 32)`. -/
theorem covered (i : S8x256x256x128.Idx) : ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 256 := (i 2).isLt
  have h3 : (i 3).val < 128 := (i 3).isLt
  obtain ⟨t, ht⟩ := idx_onto ⟨(i 0).val, h0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 256 ≤ (i 2).val ∧ (i 2).val < win0_7.index t (2 : Fin 4) * 256 + 256; omega
  | ⟨3, _⟩ => show win0_7.index t (3 : Fin 4) * 128 ≤ (i 3).val ∧ (i 3).val < win0_7.index t (3 : Fin 4) * 128 + 128; omega

/-- After every write-back the result array holds the layer. -/
theorem final (c : Dev nD) : (dats m 0 c).arrAt 7 cfg0.N = layer m c :=
  (dats m 0 c).arrAt_eq_of_cover 7 (layer m c) (fun t _ => flushed_eq m c t) covered

/-! ## The run, read -/

/-- Every weakly fair execution of the idealized kernel's program terminates with the result array at the layer of the
    argument arrays, and the six arguments as launched. -/
theorem run : θ_run defs (onTc (τ := τ) (main (F := Ideal))) ⟨m, fun _ => 0, ρ⟩ (fun r => ∀ c : Dev nD,
      r.2.mem ((c.tc : Thread nD τ).loc main_v2) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 7).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 rfl (by decide))).trans (V_main_arg2 m c),
      ((h c).1 4).trans (((dats m 0 c).arrAt_in 4 rfl _).trans ((A_eq m c 4).trans (V_main_arg3 m c))),
      ((h c).2 main_arg4 (Pipeline.mem_restRefs_of main_arg4 rfl (by decide))).trans (V_main_arg4 m c),
      ((h c).1 6).trans (((dats m 0 c).arrAt_in 6 rfl _).trans ((A_eq m c 6).trans (V_main_arg5 m c)))⟩)
    (run_main m ρ)

end Cert.KernelIdeal.EdgeValue

end
-- ==== Proof.RefValue.lean ====
/-
  The reference program's result, read element by element on the extended reals.

  The reference computes, for a batch `b`, a pair of nodes `(i, j)` and an output feature `o`:
    * the edge contraction `∑ h, e[b,i,j,h] · U_w[o,h]`, to which the edge bias `U_b[o]` is added;
    * for every node `n` the node contraction plus the node bias, `(∑ h, x[b,n,h] · V_w[o,h]) + V_b[o]`;
    * the sum `((edge + U_b[o]) + node i) + node j`: the node array enters twice, once constant along the second node axis
      (so its entry at `(b, i, j, o)` is node `i`'s) and once constant along the first (node `j`'s).
  This is exactly the grouping of `Cert.EdgeSpec.edgeLayer`, so no law of addition is needed: every stage is read at an index
  whose coordinates are named, and the broadcasts only drop or repeat coordinates.
-/
import proofs.«138836_j2001454760694_2_alg».proof.Proof.Gen.ReferenceIdeal.Read
import proofs.«138836_j2001454760694_2_alg».proof.Proof.Spec

noncomputable section

open scoped BigOperators

namespace Cert.ReferenceIdeal.RefValue

open Cert.ReferenceIdeal Cert.ReferenceIdeal.Gen Cert.ReferenceIdeal.Read Cert.EdgeSpec Idealize.ShloMosaic Idealize.ShloMosaic.ValueIdx

/-! ## The indices the stages read their operands at -/

/-- The edge contraction at `(b, i, j, o)` reads the edge features along the row `(b, i, j, ·)`. -/
theorem edge_lhs_idx (b : Fin 8) (i j : Fin 256) (o h : Fin 128) : lidx_main_v0 (ix4 b i j o) h = ix4 b i j h :=
  funext fun a => Fin.ext (by match a with | ⟨0, _⟩ => rfl | ⟨1, _⟩ => rfl | ⟨2, _⟩ => rfl | ⟨3, _⟩ => rfl)

/-- The edge contraction at `(b, i, j, o)` reads the edge weights along the row `(o, ·)`. -/
theorem edge_rhs_idx (b : Fin 8) (i j : Fin 256) (o h : Fin 128) : ridx_main_v0 (ix4 b i j o) h = ix2 o h :=
  funext fun a => Fin.ext (by match a with | ⟨0, _⟩ => rfl | ⟨1, _⟩ => rfl)

/-- The node contraction at `(b, n, o)` reads the node features along the row `(b, n, ·)`. -/
theorem node_lhs_idx (b : Fin 8) (n : Fin 256) (o h : Fin 128) : lidx_main_v4 (ix3 b n o) h = ix3 b n h :=
  funext fun a => Fin.ext (by match a with | ⟨0, _⟩ => rfl | ⟨1, _⟩ => rfl | ⟨2, _⟩ => rfl)

/-- The node contraction at `(b, n, o)` reads the node weights along the row `(o, ·)`. -/
theorem node_rhs_idx (b : Fin 8) (n : Fin 256) (o h : Fin 128) : ridx_main_v4 (ix3 b n o) h = ix2 o h :=
  funext fun a => Fin.ext (by match a with | ⟨0, _⟩ => rfl | ⟨1, _⟩ => rfl)

/-- The edge bias spread over `[b, i, j, o]` depends on `o` alone. -/
theorem edge_bias_idx (b : Fin 8) (i j : Fin 256) (o : Fin 128) : idx_main_v1 (idx_main_v2 (ix4 b i j o)) = ix1 o :=
  funext fun a => Fin.ext (by match a with | ⟨0, _⟩ => rfl)

/-- The node bias spread over `[b, n, o]` depends on `o` alone. -/
theorem node_bias_idx (b : Fin 8) (n : Fin 256) (o : Fin 128) : idx_main_v5 (idx_main_v6 (ix3 b n o)) = ix1 o :=
  funext fun a => Fin.ext (by match a with | ⟨0, _⟩ => rfl)

/-- The node array repeated along the second node axis: its entry at `(b, i, j, o)` is the node array's at `(b, i, o)`. -/
theorem first_node_idx (b : Fin 8) (i j : Fin 256) (o : Fin 128) : idx_main_v8 (idx_main_v9 (ix4 b i j o)) = ix3 b i o :=
  funext fun a => Fin.ext (by match a with | ⟨0, _⟩ => rfl | ⟨1, _⟩ => rfl | ⟨2, _⟩ => rfl)

/-- The node array repeated along the first node axis: its entry at `(b, i, j, o)` is the node array's at `(b, j, o)`. -/
theorem second_node_idx (b : Fin 8) (i j : Fin 256) (o : Fin 128) : idx_main_v11 (idx_main_v12 (ix4 b i j o)) = ix3 b j o :=
  funext fun a => Fin.ext (by match a with | ⟨0, _⟩ => rfl | ⟨1, _⟩ => rfl | ⟨2, _⟩ => rfl)

/-! ## The stages at an index -/

/-- The edge contraction at `(b, i, j, o)` is `∑ h, e[b,i,j,h] · U_w[o,h]`. -/
theorem edge_dot_apply (e : FVec Ideal S8x256x256x128 .f32) (Uw : FVec Ideal S128x128 .f32) (b : Fin 8) (i j : Fin 256) (o : Fin 128) :
    val_main_v0 (F := Ideal) e Uw (ix4 b i j o) = edgeTerm e Uw b i j o := by
  rw [val_main_v0_apply]
  unfold edgeTerm
  refine Finset.sum_congr rfl fun h _ => ?_
  rw [edge_lhs_idx, edge_rhs_idx]

/-- The edge contraction with the edge bias added, at `(b, i, j, o)`, is `(∑ h, e[b,i,j,h] · U_w[o,h]) + U_b[o]`. -/
theorem edge_biased_apply (e : FVec Ideal S8x256x256x128 .f32) (Uw : FVec Ideal S128x128 .f32) (Ub : FVec Ideal S128 .f32)
    (b : Fin 8) (i j : Fin 256) (o : Fin 128) :
    val_main_v3 (F := Ideal) e Uw Ub (ix4 b i j o) = edgeTerm e Uw b i j o + Ub (ix1 o) := by
  rw [val_main_v3_apply, val_main_v2_apply, val_main_v1_apply, edge_bias_idx, edge_dot_apply, Ideal.addf_def]

/-- The node stage at `(b, n, o)` is `(∑ h, x[b,n,h] · V_w[o,h]) + V_b[o]`. -/
theorem node_apply (x : FVec Ideal S8x256x128 .f32) (Vw : FVec Ideal S128x128 .f32) (Vb : FVec Ideal S128 .f32)
    (b : Fin 8) (n : Fin 256) (o : Fin 128) :
    val_main_v7 (F := Ideal) x Vw Vb (ix3 b n o) = nodeTerm x Vw Vb b n o := by
  rw [val_main_v7_apply, val_main_v6_apply, val_main_v5_apply, node_bias_idx, val_main_v4_apply, Ideal.addf_def]
  unfold nodeTerm
  refine congrArg (· + Vb (ix1 o)) (Finset.sum_congr rfl fun h _ => ?_)
  rw [node_lhs_idx, node_rhs_idx]

/-- The node array repeated along the second node axis, at `(b, i, j, o)`, is node `i`'s term. -/
theorem first_node_apply (x : FVec Ideal S8x256x128 .f32) (Vw : FVec Ideal S128x128 .f32) (Vb : FVec Ideal S128 .f32)
    (b : Fin 8) (i j : Fin 256) (o : Fin 128) :
    val_main_v9 (F := Ideal) x Vw Vb (ix4 b i j o) = nodeTerm x Vw Vb b i o := by
  rw [val_main_v9_apply, val_main_v8_apply, first_node_idx, node_apply]

/-- The node array repeated along the first node axis, at `(b, i, j, o)`, is node `j`'s term. -/
theorem second_node_apply (x : FVec Ideal S8x256x128 .f32) (Vw : FVec Ideal S128x128 .f32) (Vb : FVec Ideal S128 .f32)
    (b : Fin 8) (i j : Fin 256) (o : Fin 128) :
    val_main_v12 (F := Ideal) x Vw Vb (ix4 b i j o) = nodeTerm x Vw Vb b j o := by
  rw [val_main_v12_apply, val_main_v11_apply, second_node_idx, node_apply]

/-! ## The result -/

/-- The reference's last stage is the layer: at every `(b, i, j, o)` it is `((edge + U_b[o]) + node i) + node j`. -/
theorem val_main_v13_eq_edgeLayer (x : FVec Ideal S8x256x128 .f32) (e : FVec Ideal S8x256x256x128 .f32) (Uw : FVec Ideal S128x128 .f32)
    (Ub : FVec Ideal S128 .f32) (Vw : FVec Ideal S128x128 .f32) (Vb : FVec Ideal S128 .f32) :
    val_main_v13 (F := Ideal) x e Uw Ub Vw Vb = edgeLayer x e Uw Ub Vw Vb := by
  funext k
  obtain ⟨b, i, j, o, rfl⟩ : ∃ (b : Fin 8) (i j : Fin 256) (o : Fin 128), k = ix4 b i j o := ⟨k 0, k 1, k 2, k 3, eq_ix4 k⟩
  rw [val_main_v13_apply, val_main_v10_apply, edge_biased_apply, first_node_apply, second_node_apply, Ideal.addf_def, Ideal.addf_def]
  rfl

/-- The term the reference's run ends with — the three sums of the two contractions and their spread biases, as the run states
    it — is the layer `edgeLayer` of the six argument arrays. -/
theorem result_eq (x : FVec Ideal S8x256x128 .f32) (e : FVec Ideal S8x256x256x128 .f32) (Uw : FVec Ideal S128x128 .f32)
    (Ub : FVec Ideal S128 .f32) (Vw : FVec Ideal S128x128 .f32) (Vb : FVec Ideal S128 .f32) :
    addf (addf (addf (Host.dotGeneral dot_S8x256x256x128_S128x128_S8x256x256x128_3_1_012_0_n_n none e Uw) (broadcastInDim S8x256x256x128 ![0, 1, 2, 3] bcast_S1x1x1x128_S8x256x256x128_0_1_2_3 (broadcastInDim S1x1x1x128 ![3] bcast_S128_S1x1x1x128_3 Ub))) (broadcastInDim S8x256x256x128 ![0, 1, 2, 3] bcast_S8x256x1x128_S8x256x256x128_0_1_2_3 (broadcastInDim S8x256x1x128 ![0, 1, 3] bcast_S8x256x128_S8x256x1x128_0_1_3 (addf (Host.dotGeneral dot_S8x256x128_S128x128_S8x256x128_2_1_01_0_n_n none x Vw) (broadcastInDim S8x256x128 ![0, 1, 2] bcast_S1x1x128_S8x256x128_0_1_2 (broadcastInDim S1x1x128 ![2] bcast_S128_S1x1x128_2 Vb)))))) (broadcastInDim S8x256x256x128 ![0, 1, 2, 3] bcast_S8x1x256x128_S8x256x256x128_0_1_2_3 (broadcastInDim S8x1x256x128 ![0, 2, 3] bcast_S8x256x128_S8x1x256x128_0_2_3 (addf (Host.dotGeneral dot_S8x256x128_S128x128_S8x256x128_2_1_01_0_n_n none x Vw) (broadcastInDim S8x256x128 ![0, 1, 2] bcast_S1x1x128_S8x256x128_0_1_2 (broadcastInDim S1x1x128 ![2] bcast_S128_S1x1x128_2 Vb)))))
      = edgeLayer x e Uw Ub Vw Vb :=
  (val_main_v13_eq (F := Ideal) x e Uw Ub Vw Vb).trans (val_main_v13_eq_edgeLayer x e Uw Ub Vw Vb)

end Cert.ReferenceIdeal.RefValue

end
-- ==== Proof.lean ====
/-
  The edge-feature layer of a message-passing network: a fused kernel against its plain reference, on the extended reals.

  For a batch `b`, nodes `i, j` and an output feature `o`, with node features `x`, edge features `e`, edge weights and bias
  `U_w, U_b`, node weights and bias `V_w, V_b`:

      out[b,i,j,o] = (∑ₕ e[b,i,j,h]·U_w[o,h] + U_b[o]) + (∑ₕ x[b,i,h]·V_w[o,h] + V_b[o]) + (∑ₕ x[b,j,h]·V_w[o,h] + V_b[o]).

  The reference computes the three terms over the whole arrays and adds them in this order (`Proof/RefValue`, over its
  run read one operation at a time). The kernel works tile by tile — 32 rows `i` of one batch entry at a time, all `j` —,
  multiplies by the weights transposed beforehand, and adds the edge bias to the third term instead of to the first
  (`Proof/Payload`, `Proof/KernelIdealValue`). With every change of float format the identity and every product its exact
  sum, the two agree element by element because addition on the extended reals is commutative and associative
  (`Cert.EdgeSpec.regroup`); no operand need be finite, so the precondition is not used by the value claim.

  The kernel reads the node features through two windows at once (the tile's rows and the batch entry); its run holds one
  half of that array for each (`Proof/KernelRun`, `Proof/KernelIdealRun`: the same text at the word-level and at the ideal
  instance). The idealization rewrote no operation, so it is the kernel's own text read on the extended reals.
-/
import proofs.«138836_j2001454760694_2_alg».proof.Defs
import proofs.«138836_j2001454760694_2_alg».proof.Proof.Gen.Kernel
import proofs.«138836_j2001454760694_2_alg».proof.Proof.Gen.KernelIdeal
import proofs.«138836_j2001454760694_2_alg».proof.Proof.Gen.ReferenceIdeal
import proofs.«138836_j2001454760694_2_alg».proof.Proof.Gen.Pre_finite_inputs
import proofs.«138836_j2001454760694_2_alg».proof.Proof.Gen.ReferenceIdeal.Run
import proofs.«138836_j2001454760694_2_alg».proof.Proof.KernelRun
import proofs.«138836_j2001454760694_2_alg».proof.Proof.KernelIdealValue
import proofs.«138836_j2001454760694_2_alg».proof.Proof.RefValue

noncomputable section

namespace Cert.Proof

open Idealize.ShloMosaic Idealize.SL.Sem

/-- The word-level kernel runs to the end and leaves its arguments as launched. -/
theorem frame_kernel : Cert.frame_Kernel := fun m ρ _ => Cert.Kernel.Run.frame m ρ

/-- So does the kernel read on the extended reals. -/
theorem frame_kernel_ideal : Cert.frame_KernelIdeal := fun m ρ _ => Cert.KernelIdeal.Run.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the layer of those arguments in their results. -/
theorem algebraic : Cert.algebraic_KernelIdeal_ReferenceIdeal := by
  intro m ρ m' ρ' _ hagree
  refine ⟨fun c => Cert.KernelIdeal.EdgeValue.layer m c, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
